-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x162x2048 : Shape := ⟨3, ![64, 162, 2048]⟩
abbrev S2048x2048 : Shape := ⟨2, ![2048, 2048]⟩
abbrev S1x162x2048 : Shape := ⟨3, ![1, 162, 2048]⟩
abbrev S_ : Shape := ⟨0, ![]⟩

class Facts : Prop where
  bcast_S_S64x162x2048 : S_.BroadcastsInDim S64x162x2048 (![] : Fin 0 → Fin S64x162x2048.rank)
  reducesTo_S64x162x2048_S_d0_1_2 : S64x162x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S1x162x2048 : S_.BroadcastsInDim S1x162x2048 (![] : Fin 0 → Fin S1x162x2048.rank)
  reducesTo_S1x162x2048_S_d0_1_2 : S1x162x2048.ReducesTo [0, 1, 2] S_

variable [Facts]

def fn_part1 {F : FTy → Type} [FloatOps F] (main_arg4 : FVec F S1x162x2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S1x162x2048 .f32 := Host.absf main_arg4
  let main_cst_6 : FVec F S_ .f32 := constant S_ .f32 0x7F800000#32
  let main_v20 : FVec F S1x162x2048 .f32 := broadcastInDim S1x162x2048 ![] bcast_S_S1x162x2048 main_cst_6
  let main_v21 : IVec S1x162x2048 1 := cmpf .olt main_v19 main_v20
  let main_c_7 : IVec S_ 1 := constantI S_ 1 1#1
  let main_v22 : IVec S_ 1 := (fun x v => Host.reduce IntOp.andi x v reducesTo_S1x162x2048_S_d0_1_2 h_S_) main_v21 main_c_7
  let main_v23 : IVec S_ 1 := andi main_v18 main_v22
  main_v23

def fn {F : FTy → Type} [FloatOps F] (main_arg0 : FVec F S64x162x2048 .f32) (main_arg1 : FVec F S64x162x2048 .f32) (main_arg2 : FVec F S2048x2048 .f32) (main_arg3 : FVec F S2048x2048 .f32) (main_arg4 : FVec F S1x162x2048 .f32) : IVec S_ 1 :=
  let main_v0 : FVec F S64x162x2048 .f32 := Host.absf main_arg0
  let main_cst : FVec F S_ .f32 := constant S_ .f32 0x7F800000#32
  let main_v1 : FVec F S64x162x2048 .f32 := broadcastInDim S64x162x2048 ![] bcast_S_S64x162x2048 main_cst
  let main_v2 : IVec S64x162x2048 1 := cmpf .olt main_v0 main_v1
  let main_c : IVec S_ 1 := constantI S_ 1 1#1
  let main_v3 : IVec S_ 1 := (fun x v => Host.reduce IntOp.andi x v reducesTo_S64x162x2048_S_d0_1_2 h_S_) main_v2 main_c
  let main_v4 : FVec F S64x162x2048 .f32 := Host.absf main_arg1
  let main_cst_0 : FVec F S_ .f32 := constant S_ .f32 0x7F800000#32
  let main_v5 : FVec F S64x162x2048 .f32 := broadcastInDim S64x162x2048 ![] bcast_S_S64x162x2048 main_cst_0
  let main_v6 : IVec S64x162x2048 1 := cmpf .olt main_v4 main_v5
  let main_c_1 : IVec S_ 1 := constantI S_ 1 1#1
  let main_v7 : IVec S_ 1 := (fun x v => Host.reduce IntOp.andi x v reducesTo_S64x162x2048_S_d0_1_2 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_v13 main_v16
-- ==== Kernel.lean ====
abbrev S64x162x2048 : Shape := ⟨3, ![64, 162, 2048]⟩
abbrev S2048x2048 : Shape := ⟨2, ![2048, 2048]⟩
abbrev S1x162x2048 : Shape := ⟨3, ![1, 162, 2048]⟩
abbrev S162x2048 : Shape := ⟨2, ![162, 2048]⟩
abbrev S162 : Shape := ⟨1, ![162]⟩
abbrev S162x1 : Shape := ⟨2, ![162, 1]⟩
abbrev S162x162 : Shape := ⟨2, ![162, 162]⟩

abbrev nBuf : Space → Nat
  | .hbm => 8
  | .vmem => 9
  | .smem => 0
  | _ => 0

abbrev bufTy : (tb : Table) → Fin (tcTables nBuf tb) → BufTy
  | .hbm, ⟨0, _⟩ => ⟨S64x162x2048, .f32⟩
  | .hbm, ⟨1, _⟩ => ⟨S64x162x2048, .f32⟩
  | .hbm, ⟨2, _⟩ => ⟨S2048x2048, .f32⟩
  | .hbm, ⟨3, _⟩ => ⟨S2048x2048, .f32⟩
  | .hbm, ⟨4, _⟩ => ⟨S1x162x2048, .f32⟩
  | .hbm, ⟨5, _⟩ => ⟨S2048x2048, .bf16⟩
  | .hbm, ⟨6, _⟩ => ⟨S2048x2048, .bf16⟩
  | .hbm, ⟨7, _⟩ => ⟨S64x162x2048, .f32⟩
  | .local _ .vmem, ⟨0, _⟩ => ⟨S1x162x2048, .f32⟩
  | .local _ .vmem, ⟨1, _⟩ => ⟨S1x162x2048, .f32⟩
  | .local _ .vmem, ⟨2, _⟩ => ⟨S1x162x2048, .f32⟩
  | .local _ .vmem, ⟨3, _⟩ => ⟨S1x162x2048, .f32⟩
  | .local _ .vmem, ⟨4, _⟩ => ⟨S2048x2048, .bf16⟩
  | .local _ .vmem, ⟨5, _⟩ => ⟨S2048x2048, .bf16⟩
  | .local _ .vmem, ⟨6, _⟩ => ⟨S1x162x2048, .f32⟩
  | .local _ .vmem, ⟨7, _⟩ => ⟨S1x162x2048, .f32⟩
  | .local _ .vmem, ⟨8, _⟩ => ⟨S1x162x2048, .f32⟩
  | _, _ => ⟨S64x162x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x162x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x162x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x162x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x162x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  inb_S1x162x2048_S1x162x2048_0_0_0 : ∀ a, (![0, 0, 0] : Fin 3 → Nat) a + S1x162x2048.size a ≤ S1x162x2048.size a
  h_S1x162x2048 : 0 < S1x162x2048.numel
  shapeCasts_S1x162x2048_S162x2048 : S1x162x2048.ShapeCasts S162x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  reduces_S162x2048_S162 : S162x2048.Reduces [1] S162
  shapeCasts_S162_S162x1 : S162.ShapeCasts S162x1
  broadcasts_S162x1_S162x2048 : S162x1.Broadcasts S162x2048
  reduces_S162x162_S162 : S162x162.Reduces [1] S162
  broadcasts_S162x1_S162x162 : S162x1.Broadcasts S162x162
  shapeCasts_S162x2048_S1x162x2048 : S162x2048.ShapeCasts S1x162x2048
  dot_S162x2048_S2048x2048_S162x2048_1_1_0_0_n_n_wf : DotDims.WF S162x2048 S2048x2048 S162x2048 [1] [1] [0] [0] [] []
  dot_S162x2048_S162x2048_S162x162_1_1_0_0_n_n_wf : DotDims.WF S162x2048 S162x2048 S162x162 [1] [1] [0] [0] [] []
  dot_S162x162_S162x2048_S162x2048_1_0_0_1_n_n_wf : DotDims.WF S162x162 S162x2048 S162x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x162x2048.size a ≤ S64x162x2048.size a
  hwx0_0 : ∀ i : grid0.Coords, EltTy.bits .f32 = 32 ∨ (Rect.block (s := S64x162x2048) S1x162x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x162x2048.size a ≤ S64x162x2048.size a
  hwx0_1 : ∀ i : grid0.Coords, EltTy.bits .f32 = 32 ∨ (Rect.block (s := S64x162x2048) S1x162x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x162x2048.size a ≤ S1x162x2048.size a
  hwx0_4 : ∀ i : grid0.Coords, EltTy.bits .f32 = 32 ∨ (Rect.block (s := S1x162x2048) S1x162x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x162x2048.size a ≤ S64x162x2048.size a
  hwx0_5 : ∀ i : grid0.Coords, EltTy.bits .f32 = 32 ∨ (Rect.block (s := S64x162x2048) S1x162x2048.size (cc0_transform_5 i) (hinb0_5 i)).WholeWords (EltTy.packing .f32)

variable [Facts₀]

def dot_S162x2048_S2048x2048_S162x2048_1_1_0_0_n_n : DotDims S162x2048 S2048x2048 S162x2048 where
  lhsContracting := [1]
  rhsContracting := [1]
  lhsNonContracting := [0]
  rhsNonContracting := [0]
  lhsBatch := []
  rhsBatch := []
  wf := dot_S162x2048_S2048x2048_S162x2048_1_1_0_0_n_n_wf
def dot_S162x2048_S162x2048_S162x162_1_1_0_0_n_n : DotDims S162x2048 S162x2048 S162x162 where
  lhsContracting := [1]
  rhsContracting := [1]
  lhsNonContracting := [0]
  rhsNonContracting := [0]
  lhsBatch := []
  rhsBatch := []
  wf := dot_S162x2048_S162x2048_S162x162_1_1_0_0_n_n_wf
def dot_S162x162_S162x2048_S162x2048_1_0_0_1_n_n : DotDims S162x162 S162x2048 S162x2048 where
  lhsContracting := [1]
  rhsContracting := [0]
  lhsNonContracting := [0]
  rhsNonContracting := [1]
  lhsBatch := []
  rhsBatch := []
  wf := dot_S162x162_S162x2048_S162x2048_1_0_0_1_n_n_wf

abbrev win0_0 : Pipeline.Window sig grid0 :=
  Pipeline.Window.ofSpec (Memref.whole main_arg0) S1x162x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x162x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x162x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x162x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x162x2048 : Shape := ⟨3, ![64, 162, 2048]⟩
abbrev S2048x2048 : Shape := ⟨2, ![2048, 2048]⟩
abbrev S1x162x2048 : Shape := ⟨3, ![1, 162, 2048]⟩
abbrev S_ : Shape := ⟨0, ![]⟩
abbrev S64x162 : Shape := ⟨2, ![64, 162]⟩
abbrev S64x162x1 : Shape := ⟨3, ![64, 162, 1]⟩
abbrev S64x162x162 : Shape := ⟨3, ![64, 162, 162]⟩

abbrev nBuf : Space → Nat
  | .hbm => 54
  | .vmem => 0
  | .smem => 0
  | _ => 0

abbrev bufTy : (tb : Table) → Fin (tcTables nBuf tb) → BufTy
  | .hbm, ⟨0, _⟩ => ⟨S64x162x2048, .f32⟩
  | .hbm, ⟨1, _⟩ => ⟨S64x162x2048, .f32⟩
  | .hbm, ⟨2, _⟩ => ⟨S2048x2048, .f32⟩
  | .hbm, ⟨3, _⟩ => ⟨S2048x2048, .f32⟩
  | .hbm, ⟨4, _⟩ => ⟨S1x162x2048, .f32⟩
  | .hbm, ⟨5, _⟩ => ⟨S64x162x2048, .f32⟩
  | .hbm, ⟨6, _⟩ => ⟨S64x162x2048, .f32⟩
  | .hbm, ⟨7, _⟩ => ⟨S_, .f32⟩
  | .hbm, ⟨8, _⟩ => ⟨S64x162, .f32⟩
  | .hbm, ⟨9, _⟩ => ⟨S64x162x1, .f32⟩
  | .hbm, ⟨10, _⟩ => ⟨S64x162x1, .f32⟩
  | .hbm, ⟨11, _⟩ => ⟨S_, .f32⟩
  | .hbm, ⟨12, _⟩ => ⟨S64x162x1, .f32⟩
  | .hbm, ⟨13, _⟩ => ⟨S64x162x1, .f32⟩
  | .hbm, ⟨14, _⟩ => ⟨S64x162x2048, .f32⟩
  | .hbm, ⟨15, _⟩ => ⟨S64x162x2048, .f32⟩
  | .hbm, ⟨16, _⟩ => ⟨S64x162x162, .f32⟩
  | .hbm, ⟨17, _⟩ => ⟨S_, .f32⟩
  | .hbm, ⟨18, _⟩ => ⟨S64x162, .f32⟩
  | .hbm, ⟨19, _⟩ => ⟨S_, .f32⟩
  | .hbm, ⟨20, _⟩ => ⟨S64x162, .f32⟩
  | .hbm, ⟨21, _⟩ => ⟨S64x162, .f32⟩
  | .hbm, ⟨22, _⟩ => ⟨S64x162x1, .f32⟩
  | .hbm, ⟨23, _⟩ => ⟨S64x162x162, .f32⟩
  | .hbm, ⟨24, _⟩ => ⟨S64x162x162, .f32⟩
  | .hbm, ⟨25, _⟩ => ⟨S64x162x162, .f32⟩
  | .hbm, ⟨26, _⟩ => ⟨S_, .f32⟩
  | .hbm, ⟨27, _⟩ => ⟨S64x162, .f32⟩
  | .hbm, ⟨28, _⟩ => ⟨S64x162x1, .f32⟩
  | .hbm, ⟨29, _⟩ => ⟨S64x162x162, .f32⟩
  | .hbm, ⟨30, _⟩ => ⟨S64x162x162, .f32⟩
  | .hbm, ⟨31, _⟩ => ⟨S64x162x2048, .f32⟩
  | .hbm, ⟨32, _⟩ => ⟨S64x162x2048, .f32⟩
  | .hbm, ⟨33, _⟩ => ⟨S64x162x2048, .f32⟩
  | .hbm, ⟨34, _⟩ => ⟨S64x162x2048, .f32⟩
  | .hbm, ⟨35, _⟩ => ⟨S64x162x162, .f32⟩
  | .hbm, ⟨36, _⟩ => ⟨S_, .f32⟩
  | .hbm, ⟨37, _⟩ => ⟨S64x162x162, .f32⟩
  | .hbm, ⟨38, _⟩ => ⟨S64x162x162, .f32⟩
  | .hbm, ⟨39, _⟩ => ⟨S_, .f32⟩
  | .hbm, ⟨40, _⟩ => ⟨S64x162, .f32⟩
  | .hbm, ⟨41, _⟩ => ⟨S_, .f32⟩
  | .hbm, ⟨42, _⟩ => ⟨S64x162, .f32⟩
  | .hbm, ⟨43, _⟩ => ⟨S64x162, .f32⟩
  | .hbm, ⟨44, _⟩ => ⟨S64x162x1, .f32⟩
  | .hbm, ⟨45, _⟩ => ⟨S64x162x162, .f32⟩
  | .hbm, ⟨46, _⟩ => ⟨S64x162x162, .f32⟩
  | .hbm, ⟨47, _⟩ => ⟨S64x162x162, .f32⟩
  | .hbm, ⟨48, _⟩ => ⟨S_, .f32⟩
  | .hbm, ⟨49, _⟩ => ⟨S64x162, .f32⟩
  | .hbm, ⟨50, _⟩ => ⟨S64x162x1, .f32⟩
  | .hbm, ⟨51, _⟩ => ⟨S64x162x162, .f32⟩
  | .hbm, ⟨52, _⟩ => ⟨S64x162x162, .f32⟩
  | .hbm, ⟨53, _⟩ => ⟨S64x162x2048, .f32⟩
  | _, _ => ⟨S64x162x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩

abbrev nD : Nat := 1
abbrev τ : Topo := Topo.v7x

variable {F : FTy → Type} [FloatOps F]

class Facts₀ : Prop where
  reducesTo_S64x162x2048_S64x162_d2 : S64x162x2048.ReducesTo [2] S64x162
  h_S_ : 0 < S_.numel
  bcast_S64x162_S64x162x1_0_1 : S64x162.BroadcastsInDim S64x162x1 (![0, 1] : Fin 2 → Fin S64x162x1.rank)
  bcast_S_S64x162x1 : S_.BroadcastsInDim S64x162x1 (![] : Fin 0 → Fin S64x162x1.rank)
  bcast_S64x162x1_S64x162x2048_0_1_2 : S64x162x1.BroadcastsInDim S64x162x2048 (![0, 1, 2] : Fin 3 → Fin S64x162x2048.rank)
  reducesTo_S64x162x162_S64x162_d2 : S64x162x162.ReducesTo [2] S64x162
  bcast_S_S64x162 : S_.BroadcastsInDim S64x162 (![] : Fin 0 → Fin S64x162.rank)
  bcast_S64x162x1_S64x162x162_0_1_2 : S64x162x1.BroadcastsInDim S64x162x162 (![0, 1, 2] : Fin 3 → Fin S64x162x162.rank)
  bcast_S1x162x2048_S64x162x2048_0_1_2 : S1x162x2048.BroadcastsInDim S64x162x2048 (![0, 1, 2] : Fin 3 → Fin S64x162x2048.rank)
  bcast_S_S64x162x162 : S_.BroadcastsInDim S64x162x162 (![] : Fin 0 → Fin S64x162x162.rank)
  dot_S64x162x2048_S2048x2048_S64x162x2048_2_1_01_0_n_n_wf : DotDims.WF S64x162x2048 S2048x2048 S64x162x2048 [2] [1] [0, 1] [0] [] []
  dot_S64x162x2048_S64x162x2048_S64x162x162_2_2_1_1_0_0_wf : DotDims.WF S64x162x2048 S64x162x2048 S64x162x162 [2] [2] [1] [1] [0] [0]
  dot_S64x162x162_S64x162x2048_S64x162x2048_2_1_1_2_0_0_wf : DotDims.WF S64x162x162 S64x162x2048 S64x162x2048 [2] [1] [1] [2] [0] [0]

variable [Facts₀]

def dot_S64x162x2048_S2048x2048_S64x162x2048_2_1_01_0_n_n : DotDims S64x162x2048 S2048x2048 S64x162x2048 where
  lhsContracting := [2]
  rhsContracting := [1]
  lhsNonContracting := [0, 1]
  rhsNonContracting := [0]
  lhsBatch := []
  rhsBatch := []
  wf := dot_S64x162x2048_S2048x2048_S64x162x2048_2_1_01_0_n_n_wf
def dot_S64x162x2048_S64x162x2048_S64x162x162_2_2_1_1_0_0 : DotDims S64x162x2048 S64x162x2048 S64x162x162 where
  lhsContracting := [2]
  rhsContracting := [2]
  lhsNonContracting := [1]
  rhsNonContracting := [1]
  lhsBatch := [0]
  rhsBatch := [0]
  wf := dot_S64x162x2048_S64x162x2048_S64x162x162_2_2_1_1_0_0_wf
def dot_S64x162x162_S64x162x2048_S64x162x2048_2_1_1_2_0_0 : DotDims S64x162x162 S64x162x2048 S64x162x2048 where
  lhsContracting := [2]
  rhsContracting := [1]
  lhsNonContracting := [1]
  rhsNonContracting := [2]
  lhsBatch := [0]
  rhsBatch := [0]
  wf := dot_S64x162x162_S64x162x2048_S64x162x2048_2_1_1_2_0_0_wf

class Facts : Prop extends Facts₀ where

variable [Facts]
-- ==== Proof.Spec.lean ====
/-
  The function both programs compute, written over plain matrices of extended reals.

  One group of 162 patches has the queries `q`, the patch features `g` (both 162 × 2048), two square weight matrices
  and a positional table. The patches first attend to one another by cosine similarity: each row of `g` is divided by
  its Euclidean norm (kept away from zero by a tiny floor), the Gram matrix of the unit rows is softmaxed row by row,
  and the weights mix the rows of `g` into `g₂`. Then the projected queries `q·Wqᵀ` attend over the projected keys
  `(g₂ + pos)·Wgᵀ`: the scaled inner products are softmaxed row by row and the weights mix the rows of `g₂`.

  A softmax row is `exp (s − m) / ∑ exp (s − m)` with `m` the row's maximum (taken from −∞, and once more against −∞).
-/
import Idealize.ShloMosaic.PureOps.Ideal
import Idealize.ShloMosaic.Lib.ValueIdx

noncomputable section

open scoped BigOperators

namespace Cert.Attn

open Idealize.ShloMosaic Idealize.ShloMosaic.ValueIdx

/-- An `a × b` matrix of extended reals. -/
abbrev Mat (a b : ℕ) : Type := Fin a → Fin b → EReal

/-- A rank-2 array read as a matrix. -/
def rd2 {a b : ℕ} {φ : FTy} (x : FVec Ideal ⟨2, ![a, b]⟩ φ) : Mat a b := fun i j => x (ix2 i j)

/-- Slab `t` of a rank-3 array read as a matrix. -/
def rd3 {n a b : ℕ} {φ : FTy} (x : FVec Ideal ⟨3, ![n, a, b]⟩ φ) (t : Fin n) : Mat a b := fun i j => x (ix3 t i j)

/-- The word of −∞. -/
def negInf : EReal := Ideal.ofBits .f32 0xFF800000#32
/-- The floor under a row's norm. -/
def tiny : EReal := Ideal.ofBits .f32 0x2B8CBCCC#32
/-- The scale of the attention logits. -/
def scale : EReal := Ideal.ofBits .f32 0x3CB504F3#32

/-- `x · wᵀ`: rows of `x` against rows of `w`. -/
def timesT {n k p : ℕ} (x : Mat n k) (w : Mat p k) : Mat n p := fun i d => ∑ c : Fin k, x i c * w d c

/-- `a · v`: rows of `a` against columns of `v`. -/
def times {n k p : ℕ} (a : Mat n k) (v : Mat k p) : Mat n p := fun i c => ∑ j : Fin k, a i j * v j c

/-- Each row divided by its Euclidean norm, the norm floored at `tiny`. -/
def unitRows {n k : ℕ} (g : Mat n k) : Mat n k :=
  fun i c => Ideal.div (g i c) (max (Ideal.sqrt (∑ c' : Fin k, g i c' * g i c')) tiny)

/-- The maximum of row `i`, taken from −∞ and once more against −∞. -/
def rowMax {n k : ℕ} (s : Mat n k) (i : Fin n) : EReal :=
  max negInf ((Finset.univ : Finset (Fin k)).fold max negInf (fun j => s i j))

/-- The softmax of each row. -/
def softmax {n k : ℕ} (s : Mat n k) : Mat n k :=
  fun i j => Ideal.div (Ideal.exp (s i j - rowMax s i)) (∑ j' : Fin k, Ideal.exp (s i j' - rowMax s i))

/-- The patches' features after attending to one another by cosine similarity. -/
def selfMix {n k : ℕ} (g : Mat n k) : Mat n k := times (softmax (timesT (unitRows g) (unitRows g))) g

/-- Every entry multiplied by the logit scale. -/
def scaled {n k : ℕ} (s : Mat n k) : Mat n k := fun i j => s i j * scale

/-- Entrywise sum of two matrices. -/
def plus {n k : ℕ} (x y : Mat n k) : Mat n k := fun i c => x i c + y i c

/-- The whole function of one group. -/
def attend {n k : ℕ} (q g : Mat n k) (wq wg : Mat k k) (pos : Mat n k) : Mat n k :=
  times (softmax (scaled (timesT (timesT q wq) (timesT (plus (selfMix g) pos) wg)))) (selfMix g)

/-- The result array: matrix `t` of the stack is the group function of matrix `t` of the queries and of the features,
    with the shared weights and positional table. -/
def result {n a k : ℕ} {φ₂ φ₃ : FTy} (q g : FVec Ideal ⟨3, ![n, a, k]⟩ .f32) (wq : FVec Ideal ⟨2, ![k, k]⟩ φ₂)
    (wg : FVec Ideal ⟨2, ![k, k]⟩ φ₃) (pos : FVec Ideal ⟨3, ![1, a, k]⟩ .f32) : FVec Ideal ⟨3, ![n, a, k]⟩ .f32 :=
  fun j => attend (rd3 q (j 0)) (rd3 g (j 0)) (rd2 wq) (rd2 wg) (rd3 pos 0) (j 1) (j 2)

/-- The result array at `(t, i, c)`. -/
theorem result_apply {n a k : ℕ} {φ₂ φ₃ : FTy} (q g : FVec Ideal ⟨3, ![n, a, k]⟩ .f32) (wq : FVec Ideal ⟨2, ![k, k]⟩ φ₂)
    (wg : FVec Ideal ⟨2, ![k, k]⟩ φ₃) (pos : FVec Ideal ⟨3, ![1, a, k]⟩ .f32) (t : Fin n) (i : Fin a) (c : Fin k) :
    result q g wq wg pos (ix3 t i c) = attend (rd3 q t) (rd3 g t) (rd2 wq) (rd2 wg) (rd3 pos 0) i c := rfl

end Cert.Attn

end
-- ==== Proof.LibGram.lean ====
/-
  Readings, at an entry, of the operations a table of distances between the rows of two arrays is built from, for any
  sizes.

  The squared distance between row `a` of one array and row `b` of another is the sum of the two rows' squared norms
  minus twice their inner product. A kernel keeps the first array's squared norms as a column (a length-`a` vector cast
  to `a × 1`), and takes the inner products by a matrix product that contracts one axis of each operand. The lemmas
  below read these two operations at an entry; the last one is the law by which halving a negated number is multiplying
  the number by minus one half, on every extended real.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.Gram

open Idealize.ShloMosaic Idealize.ShloMosaic.ValueIdx

variable {α : Type}

/-- A length-`a` vector cast to an `a × 1` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A matrix product accumulated into zero whose dimension numbers contract ONE axis, of extent `k`, reads at an
    output entry `j` the sum over that axis's coordinate `c` of the products of the two operands at the entries
    `li c` and `ri c` the dimension numbers pair with `j` and `c`. -/
theorem matmul_zero_single_apply {sl sr so : Shape} {φ₁ φ₂ : FTy} (D : DotDims sl sr so) (k : ℕ)
    (hrank : D.contr.rank = 1) (hsize : D.contr.size ⟨0, by omega⟩ = k) (prec : Option ContractPrecision)
    (A : FVec Ideal sl φ₁) (B : FVec Ideal sr φ₂) (j : so.Idx) (li : Fin k → sl.Idx) (ri : Fin k → sr.Idx)
    (hl : ∀ c, D.lhsIdx j ((contrEquiv1 D k hrank hsize).symm c) = li c)
    (hr : ∀ c, D.rhsIdx j ((contrEquiv1 D k hrank hsize).symm c) = ri c) :
    matmul D prec A B (constant so .f32 0x00000000#32) j = ∑ c : Fin k, A (li c) * B (ri c) := by
  show FloatOps.matmul D prec A B _ j = _
  rw [Ideal.matmul_constant_zero_apply, ← Equiv.sum_comp (contrEquiv1 D k hrank hsize).symm]
  exact Finset.sum_congr rfl fun c _ => by rw [hl c, hr c]

/-- Halving the negation of an extended real is multiplying it by minus one half: division by the real `2` is the
    product with `1/2`, and a sign moves freely across a product — also at the two infinities. -/
theorem div_neg_two (d : EReal) : Ideal.div (-d) ((2 : ℝ) : EReal) = d * ((-(1 / 2) : ℝ) : EReal) := by
  rw [Ideal.div_coe (by norm_num : (2 : ℝ) ≠ 0), EReal.coe_neg, mul_neg, neg_mul]

end Cert.Lib.Gram

end
-- ==== Proof.LibRowMax.lean ====
/-
  General lemmas about a row-wise maximum over the extended reals.
-/
import Idealize.ShloMosaic.Lib.Pipeline.Value
import Idealize.ShloMosaic.Lib.ValueIdx
import Idealize.ShloMosaic.PureOps.Ideal.Laws

noncomputable section

namespace Cert.Lib.RowMax

open Idealize.ShloMosaic Idealize.ShloMosaic.ValueIdx

/-- A maximum along the lanes of an `n × k` array taken from the word of `-∞` reads, at row `r`, the fold of `max` from
    that word over the row's `k` entries (in any order: `max` commutes and associates). -/
theorem laneMax_apply {n k : ℕ} (src : FVec Ideal ⟨2, ![n, k]⟩ .f32) (h : (⟨2, ![n, k]⟩ : Shape).Reduces [1] ⟨1, ![n]⟩)
    (hφ : FKind.Formats .f32) (hacc : (0xFF800000#32 : BitVec 32) = 0xFF800000#32) (r : Fin n) :
    multiReduction .maximumf [1] ⟨1, ![n]⟩ src 0xFF800000#32 h hφ hacc (ix1 r)
      = (Finset.univ : Finset (Fin k)).fold max (Ideal.ofBits .f32 0xFF800000#32) (fun c => src (ix2 r c)) := by
  refine (Ideal.multiReduction_maximumf_single src 0xFF800000#32 h hφ hacc (ix1 r)).trans ?_
  refine congrArg (fun f => (Finset.univ : Finset (Fin k)).fold max (Ideal.ofBits .f32 0xFF800000#32) f) (funext fun c => ?_)
  exact congrArg src (funext fun ax => Fin.ext (by
    match ax with
    | ⟨0, _⟩ => rfl
    | ⟨1, _⟩ => rfl))

/-- The exponential of a vector read at an entry. -/
theorem exp_apply {s : Shape} {φ : FTy} (x : FVec Ideal s φ) (i : s.Idx) : exp x i = Ideal.exp (x i) := rfl

/-- The host's exponential of a vector read at an entry: the same function. -/
theorem hostExp_apply {s : Shape} {φ : FTy} (x : FVec Ideal s φ) (i : s.Idx) : Host.exp x i = Ideal.exp (x i) := rfl

/-- The word `0xFF800000` is the bottom of the extended reals, so a maximum against it is the other operand. -/
theorem max_negInf (y : EReal) : max (Ideal.ofBits .f32 0xFF800000#32) y = y := by
  have h : Ideal.ofBits .f32 0xFF800000#32 = (⊥ : EReal) := by simp [Ideal.ofBits, Ideal.ieee]
  rw [h, max_eq_right bot_le]

end Cert.Lib.RowMax

end
-- ==== Proof.LibRowOps.lean ====
/-
  Two readings, at an entry, of operations on the rows of a matrix, for any sizes.

  A sum along the lanes of an `n × k` array gives one number per row: at row `r` it is the sum of that row's `k`
  entries.  An `a × 1` column spread over `b` lanes repeats each row's one entry along the row: at `(p, c)` it reads
  the column's entry of row `p`, whatever the lane `c` (also when `a = 1`).
-/
import Idealize.ShloMosaic.Lib.Pipeline.Value
import Idealize.ShloMosaic.Lib.ValueIdx
import Idealize.ShloMosaic.PureOps.Ideal.Laws

noncomputable section

open scoped BigOperators

namespace Cert.Lib.RowOps

open Idealize.ShloMosaic Idealize.ShloMosaic.ValueIdx

/-- A sum along the lanes of an `n × k` array from the zero word reads, at row `r`, the sum of that row's entries. -/
theorem laneSum_apply {n k : ℕ} (src : FVec Ideal ⟨2, ![n, k]⟩ .f32) (h : (⟨2, ![n, k]⟩ : Shape).Reduces [1] ⟨1, ![n]⟩)
    (hφ : FKind.Formats .f32) (hacc : (0x00000000#32 : BitVec 32) = 0x00000000#32) (r : Fin n) :
    multiReduction .add [1] ⟨1, ![n]⟩ src 0x00000000#32 h hφ hacc (ix1 r) = ∑ c : Fin k, src (ix2 r c) := by
  refine (Ideal.multiReduction_add_single src 0x00000000#32 h hφ hacc (ix1 r)).trans ?_
  exact Finset.sum_congr rfl fun c _ => congrArg src (funext fun ax => Fin.ext (by
    match ax with
    | ⟨0, _⟩ => rfl
    | ⟨1, _⟩ => rfl))

/-- An `a × 1` column spread over `b` lanes reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.RowOps

end
-- ==== Proof.KernelStages.lean ====
/-
  The kernel's vector operations, group by group, read as the matrix functions of the specification.

  Three matrix products (rows against rows of a square weight matrix, rows against rows of a second 162 × 2048 array,
  and a 162 × 162 weight matrix against the rows of a 162 × 2048 array), the division of each row by its floored norm,
  and the row softmax. Every product is accumulated into zero, so at an entry it is the plain sum over the contracted
  coordinate; a lane sum at a row is the sum of the row's entries; a lane maximum from −∞ is the fold of `max` over
  the row; a column kept as 162 × 1 and spread back over the lanes repeats the row's number along the row.
-/
import proofs.«140493_j51814485458995_1_alg».proof.Proof.Gen.KernelIdeal
import proofs.«140493_j51814485458995_1_alg».proof.Proof.Spec
import proofs.«140493_j51814485458995_1_alg».proof.Proof.LibGram
import proofs.«140493_j51814485458995_1_alg».proof.Proof.LibRowMax
import proofs.«140493_j51814485458995_1_alg».proof.Proof.LibRowOps

noncomputable section

open scoped BigOperators

namespace Cert.KernelIdeal.Stages

open Cert.KernelIdeal Cert.KernelIdeal.Gen Cert.Attn Idealize.ShloMosaic Idealize.ShloMosaic.ValueIdx

/-! ## The three matrix products -/

theorem proj_l0 (j : S162x2048.Idx) (q : dot_S162x2048_S2048x2048_S162x2048_1_1_0_0_n_n.contr.Idx) : (dot_S162x2048_S2048x2048_S162x2048_1_1_0_0_n_n.lhsIdx j q 0).val = (j 0).val := by
  unfold DotDims.lhsIdx
  rw [dif_neg (show ¬(0 : Fin S162x2048.rank) ∈ dot_S162x2048_S2048x2048_S162x2048_1_1_0_0_n_n.lhsBatch by decide),
    dif_pos (show (0 : Fin S162x2048.rank) ∈ dot_S162x2048_S2048x2048_S162x2048_1_1_0_0_n_n.lhsNonContracting by decide)]
  rfl
theorem proj_l1 (j : S162x2048.Idx) (q : dot_S162x2048_S2048x2048_S162x2048_1_1_0_0_n_n.contr.Idx) : (dot_S162x2048_S2048x2048_S162x2048_1_1_0_0_n_n.lhsIdx j q 1).val = (q ⟨0, by decide⟩).val :=
  dot_S162x2048_S2048x2048_S162x2048_1_1_0_0_n_n.lhsIdx_val_of_single rfl j q
theorem proj_r0 (j : S162x2048.Idx) (q : dot_S162x2048_S2048x2048_S162x2048_1_1_0_0_n_n.contr.Idx) : (dot_S162x2048_S2048x2048_S162x2048_1_1_0_0_n_n.rhsIdx j q 0).val = (j 1).val := by
  unfold DotDims.rhsIdx
  rw [dif_neg (show ¬(0 : Fin S2048x2048.rank) ∈ dot_S162x2048_S2048x2048_S162x2048_1_1_0_0_n_n.rhsBatch by decide),
    dif_pos (show (0 : Fin S2048x2048.rank) ∈ dot_S162x2048_S2048x2048_S162x2048_1_1_0_0_n_n.rhsNonContracting by decide)]
  rfl
theorem proj_r1 (j : S162x2048.Idx) (q : dot_S162x2048_S2048x2048_S162x2048_1_1_0_0_n_n.contr.Idx) : (dot_S162x2048_S2048x2048_S162x2048_1_1_0_0_n_n.rhsIdx j q 1).val = (q ⟨0, by decide⟩).val :=
  dot_S162x2048_S2048x2048_S162x2048_1_1_0_0_n_n.rhsIdx_val_of_single rfl j q

/-- Rows of a 162 × 2048 array against rows of a 2048 × 2048 weight matrix. -/
theorem proj_read {φ₁ φ₂ : FTy} (A : FVec Ideal S162x2048 φ₁) (B : FVec Ideal S2048x2048 φ₂) :
    rd2 (matmul dot_S162x2048_S2048x2048_S162x2048_1_1_0_0_n_n none A B (constant S162x2048 .f32 0x00000000#32)) = timesT (rd2 A) (rd2 B) := by
  funext i d
  refine Cert.Lib.Gram.matmul_zero_single_apply dot_S162x2048_S2048x2048_S162x2048_1_1_0_0_n_n 2048 rfl rfl none A B
    (ix2 i d) (fun c => ix2 i c) (fun c => ix2 d c) (fun c => funext fun a => Fin.ext ?_) (fun c => funext fun a => Fin.ext ?_)
  · have hk := contrEquiv1_symm_val dot_S162x2048_S2048x2048_S162x2048_1_1_0_0_n_n 2048 rfl rfl c
    match a with
    | ⟨0, _⟩ => exact proj_l0 _ _
    | ⟨1, _⟩ => exact (proj_l1 _ _).trans hk
  · have hk := contrEquiv1_symm_val dot_S162x2048_S2048x2048_S162x2048_1_1_0_0_n_n 2048 rfl rfl c
    match a with
    | ⟨0, _⟩ => exact proj_r0 _ _
    | ⟨1, _⟩ => exact (proj_r1 _ _).trans hk

theorem gram_l0 (j : S162x162.Idx) (q : dot_S162x2048_S162x2048_S162x162_1_1_0_0_n_n.contr.Idx) : (dot_S162x2048_S162x2048_S162x162_1_1_0_0_n_n.lhsIdx j q 0).val = (j 0).val := by
  unfold DotDims.lhsIdx
  rw [dif_neg (show ¬(0 : Fin S162x2048.rank) ∈ dot_S162x2048_S162x2048_S162x162_1_1_0_0_n_n.lhsBatch by decide),
    dif_pos (show (0 : Fin S162x2048.rank) ∈ dot_S162x2048_S162x2048_S162x162_1_1_0_0_n_n.lhsNonContracting by decide)]
  rfl
theorem gram_l1 (j : S162x162.Idx) (q : dot_S162x2048_S162x2048_S162x162_1_1_0_0_n_n.contr.Idx) : (dot_S162x2048_S162x2048_S162x162_1_1_0_0_n_n.lhsIdx j q 1).val = (q ⟨0, by decide⟩).val :=
  dot_S162x2048_S162x2048_S162x162_1_1_0_0_n_n.lhsIdx_val_of_single rfl j q
theorem gram_r0 (j : S162x162.Idx) (q : dot_S162x2048_S162x2048_S162x162_1_1_0_0_n_n.contr.Idx) : (dot_S162x2048_S162x2048_S162x162_1_1_0_0_n_n.rhsIdx j q 0).val = (j 1).val := by
  unfold DotDims.rhsIdx
  rw [dif_neg (show ¬(0 : Fin S162x2048.rank) ∈ dot_S162x2048_S162x2048_S162x162_1_1_0_0_n_n.rhsBatch by decide),
    dif_pos (show (0 : Fin S162x2048.rank) ∈ dot_S162x2048_S162x2048_S162x162_1_1_0_0_n_n.rhsNonContracting by decide)]
  rfl
theorem gram_r1 (j : S162x162.Idx) (q : dot_S162x2048_S162x2048_S162x162_1_1_0_0_n_n.contr.Idx) : (dot_S162x2048_S162x2048_S162x162_1_1_0_0_n_n.rhsIdx j q 1).val = (q ⟨0, by decide⟩).val :=
  dot_S162x2048_S162x2048_S162x162_1_1_0_0_n_n.rhsIdx_val_of_single rfl j q

/-- Rows of one 162 × 2048 array against rows of another: the 162 × 162 table of inner products. -/
theorem gram_read {φ₁ φ₂ : FTy} (A : FVec Ideal S162x2048 φ₁) (B : FVec Ideal S162x2048 φ₂) :
    rd2 (matmul dot_S162x2048_S162x2048_S162x162_1_1_0_0_n_n none A B (constant S162x162 .f32 0x00000000#32)) = timesT (rd2 A) (rd2 B) := by
  funext i d
  refine Cert.Lib.Gram.matmul_zero_single_apply dot_S162x2048_S162x2048_S162x162_1_1_0_0_n_n 2048 rfl rfl none A B
    (ix2 i d) (fun c => ix2 i c) (fun c => ix2 d c) (fun c => funext fun a => Fin.ext ?_) (fun c => funext fun a => Fin.ext ?_)
  · have hk := contrEquiv1_symm_val dot_S162x2048_S162x2048_S162x162_1_1_0_0_n_n 2048 rfl rfl c
    match a with
    | ⟨0, _⟩ => exact gram_l0 _ _
    | ⟨1, _⟩ => exact (gram_l1 _ _).trans hk
  · have hk := contrEquiv1_symm_val dot_S162x2048_S162x2048_S162x162_1_1_0_0_n_n 2048 rfl rfl c
    match a with
    | ⟨0, _⟩ => exact gram_r0 _ _
    | ⟨1, _⟩ => exact (gram_r1 _ _).trans hk

theorem mix_l0 (j : S162x2048.Idx) (q : dot_S162x162_S162x2048_S162x2048_1_0_0_1_n_n.contr.Idx) : (dot_S162x162_S162x2048_S162x2048_1_0_0_1_n_n.lhsIdx j q 0).val = (j 0).val := by
  unfold DotDims.lhsIdx
  rw [dif_neg (show ¬(0 : Fin S162x162.rank) ∈ dot_S162x162_S162x2048_S162x2048_1_0_0_1_n_n.lhsBatch by decide),
    dif_pos (show (0 : Fin S162x162.rank) ∈ dot_S162x162_S162x2048_S162x2048_1_0_0_1_n_n.lhsNonContracting by decide)]
  rfl
theorem mix_l1 (j : S162x2048.Idx) (q : dot_S162x162_S162x2048_S162x2048_1_0_0_1_n_n.contr.Idx) : (dot_S162x162_S162x2048_S162x2048_1_0_0_1_n_n.lhsIdx j q 1).val = (q ⟨0, by decide⟩).val :=
  dot_S162x162_S162x2048_S162x2048_1_0_0_1_n_n.lhsIdx_val_of_single rfl j q
theorem mix_r1 (j : S162x2048.Idx) (q : dot_S162x162_S162x2048_S162x2048_1_0_0_1_n_n.contr.Idx) : (dot_S162x162_S162x2048_S162x2048_1_0_0_1_n_n.rhsIdx j q 1).val = (j 1).val := by
  unfold DotDims.rhsIdx
  rw [dif_neg (show ¬(1 : Fin S162x2048.rank) ∈ dot_S162x162_S162x2048_S162x2048_1_0_0_1_n_n.rhsBatch by decide),
    dif_pos (show (1 : Fin S162x2048.rank) ∈ dot_S162x162_S162x2048_S162x2048_1_0_0_1_n_n.rhsNonContracting by decide)]
  rfl
theorem mix_r0 (j : S162x2048.Idx) (q : dot_S162x162_S162x2048_S162x2048_1_0_0_1_n_n.contr.Idx) : (dot_S162x162_S162x2048_S162x2048_1_0_0_1_n_n.rhsIdx j q 0).val = (q ⟨0, by decide⟩).val :=
  dot_S162x162_S162x2048_S162x2048_1_0_0_1_n_n.rhsIdx_val_of_single rfl j q

/-- A 162 × 162 weight matrix against the rows of a 162 × 2048 array: the weighted sums of its rows. -/
theorem mix_read {φ₁ φ₂ : FTy} (A : FVec Ideal S162x162 φ₁) (B : FVec Ideal S162x2048 φ₂) :
    rd2 (matmul dot_S162x162_S162x2048_S162x2048_1_0_0_1_n_n none A B (constant S162x2048 .f32 0x00000000#32)) = times (rd2 A) (rd2 B) := by
  funext i d
  refine Cert.Lib.Gram.matmul_zero_single_apply dot_S162x162_S162x2048_S162x2048_1_0_0_1_n_n 162 rfl rfl none A B
    (ix2 i d) (fun c => ix2 i c) (fun c => ix2 c d) (fun c => funext fun a => Fin.ext ?_) (fun c => funext fun a => Fin.ext ?_)
  · have hk := contrEquiv1_symm_val dot_S162x162_S162x2048_S162x2048_1_0_0_1_n_n 162 rfl rfl c
    match a with
    | ⟨0, _⟩ => exact mix_l0 _ _
    | ⟨1, _⟩ => exact (mix_l1 _ _).trans hk
  · have hk := contrEquiv1_symm_val dot_S162x162_S162x2048_S162x2048_1_0_0_1_n_n 162 rfl rfl c
    match a with
    | ⟨1, _⟩ => exact mix_r1 _ _
    | ⟨0, _⟩ => exact (mix_r0 _ _).trans hk

/-! ## Format changes and the unit axis of a block -/

/-- A change of float format moves no entry and changes no value. -/
theorem rd2_truncf {a b : ℕ} {φ ψ : FTy} (x : FVec Ideal ⟨2, ![a, b]⟩ φ) (h : ψ.bits < φ.bits) :
    rd2 (truncf ψ x h : FVec Ideal ⟨2, ![a, b]⟩ ψ) = rd2 x := rfl

/-- A 1 × 162 × 2048 block with its unit axis cast away is the block's one slab. -/
theorem rd2_dropUnit {φ : FTy} (x : FVec Ideal S1x162x2048 φ) (h : S1x162x2048.ShapeCasts S162x2048) :
    rd2 (shapeCast S162x2048 x h) = rd3 x 0 := by
  funext i c
  refine shapeCast_apply x h (ix2 i c) (ix3 0 i c) ?_
  rw [Shape.rowMajor_val_two, Shape.rowMajor_val_three]
  show (0 * 162 + i.val) * 2048 + c.val = i.val * 2048 + c.val
  omega

/-- The unit axis put back: slab 0 of the 1 × 162 × 2048 block is the 162 × 2048 array. -/
theorem rd3_addUnit {φ : FTy} (x : FVec Ideal S162x2048 φ) (h : S162x2048.ShapeCasts S1x162x2048) :
    rd3 (shapeCast S1x162x2048 x h) 0 = rd2 x := by
  funext i c
  refine shapeCast_apply x h (ix3 0 i c) (ix2 i c) ?_
  rw [Shape.rowMajor_val_two, Shape.rowMajor_val_three]
  show i.val * 2048 + c.val = (0 * 162 + i.val) * 2048 + c.val
  omega

/-! ## Rows divided by their floored norms -/

/-- Each row of `v` divided by the larger of its Euclidean norm and the floor, as the kernel spells it. -/
def unitV (v : FVec Ideal S162x2048 .f32) : FVec Ideal S162x2048 .f32 :=
  divf v (broadcastTo S162x2048 (maximumf (sqrt (shapeCast S162x1
    (multiReduction .add [1] S162 (mulf v v) 0x00000000#32 reduces_S162x2048_S162 (.inl rfl) rfl) shapeCasts_S162_S162x1))
    (broadcast S162x1 (Scalar.ofBits .f32 0x2B8CBCCC#32))) broadcasts_S162x1_S162x2048)

theorem unitV_read (v : FVec Ideal S162x2048 .f32) : rd2 (unitV v) = unitRows (rd2 v) := by
  funext i c
  show Ideal.div (v (ix2 i c)) (broadcastTo S162x2048 _ broadcasts_S162x1_S162x2048 (ix2 i c)) = _
  rw [Cert.Lib.RowOps.broadcastTo_a1_ab_apply]
  show Ideal.div (v (ix2 i c)) (max (Ideal.sqrt (shapeCast S162x1 _ shapeCasts_S162_S162x1 (ix2 i (0 : Fin 1)))) _) = _
  rw [Cert.Lib.Gram.shapeCast_a_a1_apply, Cert.Lib.RowOps.laneSum_apply]
  rfl

/-! ## The row softmax -/

/-- `exp` of each entry less its row's maximum, as the kernel spells it. -/
def expShiftV (s : FVec Ideal S162x162 .f32) : FVec Ideal S162x162 .f32 :=
  exp (subf s (broadcastTo S162x162 (shapeCast S162x1 (maximumf (broadcast S162 (Scalar.ofBits .f32 0xFF800000#32))
    (multiReduction .maximumf [1] S162 s 0xFF800000#32 reduces_S162x162_S162 (.inl rfl) rfl)) shapeCasts_S162_S162x1)
    broadcasts_S162x1_S162x162))

theorem expShiftV_apply (s : FVec Ideal S162x162 .f32) (i j : Fin 162) :
    expShiftV s (ix2 i j) = Ideal.exp (rd2 s i j - rowMax (rd2 s) i) := by
  show Ideal.exp (s (ix2 i j) - broadcastTo S162x162 _ broadcasts_S162x1_S162x162 (ix2 i j)) = _
  rw [Cert.Lib.RowOps.broadcastTo_a1_ab_apply, Cert.Lib.Gram.shapeCast_a_a1_apply]
  show Ideal.exp (s (ix2 i j) - max (Ideal.ofBits .f32 0xFF800000#32)
    (multiReduction .maximumf [1] S162 s 0xFF800000#32 reduces_S162x162_S162 (.inl rfl) rfl (ix1 i))) = _
  rw [Cert.Lib.RowMax.laneMax_apply]
  rfl

/-- The softmax of each row, as the kernel spells it. -/
def softmaxV (s : FVec Ideal S162x162 .f32) : FVec Ideal S162x162 .f32 :=
  divf (expShiftV s) (broadcastTo S162x162 (shapeCast S162x1
    (multiReduction .add [1] S162 (expShiftV s) 0x00000000#32 reduces_S162x162_S162 (.inl rfl) rfl) shapeCasts_S162_S162x1)
    broadcasts_S162x1_S162x162)

theorem softmaxV_read (s : FVec Ideal S162x162 .f32) : rd2 (softmaxV s) = softmax (rd2 s) := by
  funext i j
  show Ideal.div (expShiftV s (ix2 i j)) (broadcastTo S162x162 _ broadcasts_S162x1_S162x162 (ix2 i j)) = _
  rw [Cert.Lib.RowOps.broadcastTo_a1_ab_apply, Cert.Lib.Gram.shapeCast_a_a1_apply, Cert.Lib.RowOps.laneSum_apply, expShiftV_apply]
  simp only [expShiftV_apply]
  rfl

end Cert.KernelIdeal.Stages

end
-- ==== Proof.KernelBlock.lean ====
/-
  What the kernel body leaves in one output block, as the specification's function of its five input blocks.

  The body's arithmetic is five pure terms over the loaded blocks: the second weight matrix as loaded; the projected
  queries; the patches' features after the cosine-similarity attention; those features plus the positional table; and
  the stored value, which projects the keys, takes the scaled inner products with the projected queries, softmaxes
  them and mixes the attended features. Each term is a composition of the operation groups read in the stage lemmas.
-/
import proofs.«140493_j51814485458995_1_alg».proof.Proof.Gen.KernelIdeal.Skeleton
import proofs.«140493_j51814485458995_1_alg».proof.Proof.KernelStages

noncomputable section

namespace Cert.KernelIdeal.Block

open Cert.KernelIdeal Cert.KernelIdeal.Gen Cert.KernelIdeal.Stages Cert.Attn Idealize.ShloMosaic Idealize.ShloMosaic.ValueIdx

/-- The second weight matrix is used as loaded. -/
theorem pay2_eq (v6 : FVec Ideal S2048x2048 .bf16) : k0_pay2 (F := Ideal) v6 = v6 :=
  shapeCast_self v6 _

/-- The projected queries: the rows of the query block against the rows of the first weight matrix. -/
theorem pay3_read (v0 : FVec Ideal S1x162x2048 .f32) (v4 : FVec Ideal S2048x2048 .bf16) :
    rd2 (k0_pay3 (F := Ideal) v0 v4) = timesT (rd3 v0 0) (rd2 v4) := by
  have e : k0_pay3 (F := Ideal) v0 v4 = matmul dot_S162x2048_S2048x2048_S162x2048_1_1_0_0_n_n none
      (truncf .bf16 (shapeCast S162x2048 v0 shapeCasts_S1x162x2048_S162x2048) bitsLt_bf16_f32)
      (shapeCast S2048x2048 v4 shapeCasts_S2048x2048_S2048x2048) (constant S162x2048 .f32 0x00000000#32) := rfl
  rw [e, proj_read, rd2_truncf, rd2_dropUnit, shapeCast_self]

/-- The patches' features after attending to one another by cosine similarity. -/
theorem pay4_read (v2 : FVec Ideal S1x162x2048 .f32) : rd2 (k0_pay4 (F := Ideal) v2) = selfMix (rd3 v2 0) := by
  have e : k0_pay4 (F := Ideal) v2 = matmul dot_S162x162_S162x2048_S162x2048_1_0_0_1_n_n none
      (truncf .bf16 (softmaxV (matmul dot_S162x2048_S162x2048_S162x162_1_1_0_0_n_n none
        (truncf .bf16 (unitV (shapeCast S162x2048 v2 shapeCasts_S1x162x2048_S162x2048)) bitsLt_bf16_f32)
        (truncf .bf16 (unitV (shapeCast S162x2048 v2 shapeCasts_S1x162x2048_S162x2048)) bitsLt_bf16_f32)
        (constant S162x162 .f32 0x00000000#32))) bitsLt_bf16_f32)
      (truncf .bf16 (shapeCast S162x2048 v2 shapeCasts_S1x162x2048_S162x2048) bitsLt_bf16_f32)
      (constant S162x2048 .f32 0x00000000#32) := rfl
  rw [e, mix_read, rd2_truncf, softmaxV_read, gram_read, rd2_truncf, unitV_read, rd2_truncf, rd2_dropUnit]
  rfl

/-- The attended features plus the positional table. -/
theorem pay5_read (v2 v8 : FVec Ideal S1x162x2048 .f32) :
    rd2 (k0_pay5 (F := Ideal) v2 v8) = plus (selfMix (rd3 v2 0)) (rd3 v8 0) := by
  have e : rd2 (k0_pay5 (F := Ideal) v2 v8)
      = plus (rd2 (k0_pay4 (F := Ideal) v2)) (rd2 (shapeCast S162x2048 v8 shapeCasts_S1x162x2048_S162x2048)) := rfl
  rw [e, pay4_read, rd2_dropUnit]

/-- The stored value: keys projected, scaled inner products with the projected queries softmaxed, attended features mixed. -/
theorem pay1_read (v7 : FVec Ideal S2048x2048 .bf16) (v12 v35 : FVec Ideal S162x2048 .f32) (v37 : FVec Ideal S162x2048 .bf16) :
    rd3 (k0_pay1 (F := Ideal) v7 v12 v35 v37) 0
      = times (softmax (scaled (timesT (rd2 v12) (timesT (rd2 v37) (rd2 v7))))) (rd2 v35) := by
  have e : k0_pay1 (F := Ideal) v7 v12 v35 v37 = shapeCast S1x162x2048
      (matmul dot_S162x162_S162x2048_S162x2048_1_0_0_1_n_n none
        (truncf .bf16 (softmaxV (mulf (matmul dot_S162x2048_S162x2048_S162x162_1_1_0_0_n_n none
          (truncf .bf16 v12 bitsLt_bf16_f32)
          (truncf .bf16 (matmul dot_S162x2048_S2048x2048_S162x2048_1_1_0_0_n_n none v37 v7 (constant S162x2048 .f32 0x00000000#32)) bitsLt_bf16_f32)
          (constant S162x162 .f32 0x00000000#32)) (broadcast S162x162 (Scalar.ofBits .f32 0x3CB504F3#32)))) bitsLt_bf16_f32)
        (truncf .bf16 v35 bitsLt_bf16_f32) (constant S162x2048 .f32 0x00000000#32))
      shapeCasts_S162x2048_S1x162x2048 := rfl
  have es : ∀ X : FVec Ideal S162x162 .f32,
      rd2 (mulf X (broadcast S162x162 (Scalar.ofBits (F := Ideal) .f32 0x3CB504F3#32))) = scaled (rd2 X) := fun _ => rfl
  rw [e, rd3_addUnit, mix_read, rd2_truncf, softmaxV_read, es, gram_read, rd2_truncf, rd2_truncf, proj_read, rd2_truncf]

/-- One output block as the specification's function of the five input blocks. -/
theorem block_read (x0 x1 : FVec Ideal S1x162x2048 .f32) (x2 x3 : FVec Ideal S2048x2048 .bf16) (x4 : FVec Ideal S1x162x2048 .f32) :
    rd3 (k0_pay1 (F := Ideal) (k0_pay2 x3) (k0_pay3 x0 x2) (k0_pay4 x1) (k0_pay5 x1 x4)) 0
      = attend (rd3 x0 0) (rd3 x1 0) (rd2 x2) (rd2 x3) (rd3 x4 0) := by
  rw [pay1_read, pay2_eq, pay3_read, pay4_read, pay5_read]
  rfl

end Cert.KernelIdeal.Block

end
-- ==== Proof.KernelWhole.lean ====
/-
  From the output blocks to the whole result array.

  The grid has 64 points; point `t` reads matrix `t` of the queries and of the features, the two whole weight matrices
  (converted to a narrower format on the host, which changes no value over the extended reals) and the whole
  positional table, and writes matrix `t` of the result. So what point `t` writes back is block `t` of the
  specification's result array, the 64 blocks cover the array, and the array after the run is the result array.
-/
import proofs.«140493_j51814485458995_1_alg».proof.Proof.Gen.KernelIdeal.Value
import proofs.«140493_j51814485458995_1_alg».proof.Proof.KernelBlock
import Idealize.ShloMosaic.Lib.StableHlo.Run
import Idealize.ShloMosaic.Lib.Pipeline.Value

noncomputable section

namespace Cert.KernelIdeal.Whole

open Cert.KernelIdeal Cert.KernelIdeal.Gen Cert.Attn Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- The result array of the launch contents of the five arguments on core `c`. -/
def whole (c : Dev nD) : S64x162x2048.Idx → EReal :=
  result (n := 64) (a := 162) (k := 2048) (φ₂ := .f32) (φ₃ := .f32)
    (m ((c : Thread nD τ).loc main_arg0)) (m ((c : Thread nD τ).loc main_arg1))
    (m ((c : Thread nD τ).loc main_arg2)) (m ((c : Thread nD τ).loc main_arg3)) (m ((c : Thread nD τ).loc main_arg4))

/-- The printed index maps over the 64 grid points: the query, feature and result windows sit at block `t` of the stack,
    the weight and positional windows at block 0. -/
theorem block_indices : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = 0 ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-- Grid point `t` as a position in the stack of 64. -/
abbrev pos (t : Fin cfg0.N) : Fin 64 := ⟨t.val, t.isLt⟩

/-! ## The input blocks at a point -/

theorem queries_block (c : Dev nD) (t : Fin cfg0.N) :
    rd3 (φ := .f32) (n := 1) (a := 162) (b := 2048) (iblk m c 0 t) 0 = rd3 (φ := .f32) (n := 64) (a := 162) (b := 2048) (V m c main_arg0) (pos t) := by
  obtain ⟨e0, e1, e2, -⟩ := block_indices t
  funext i k
  show V m c main_arg0 (((cfg0.win 0).blk t).view.emb (ix3 (0 : Fin 1) i k)) = V m c main_arg0 (ix3 (pos t) i k)
  refine congrArg _ (funext fun a => Fin.ext ?_)
  match a with
  | ⟨0, _⟩ => show win0_0.index t (0 : Fin 3) * 1 + 1 * 0 = t.val; omega
  | ⟨1, _⟩ => show win0_0.index t (1 : Fin 3) * 162 + 1 * i.val = i.val; omega
  | ⟨2, _⟩ => show win0_0.index t (2 : Fin 3) * 2048 + 1 * k.val = k.val; omega

theorem features_block (c : Dev nD) (t : Fin cfg0.N) :
    rd3 (φ := .f32) (n := 1) (a := 162) (b := 2048) (iblk m c 1 t) 0 = rd3 (φ := .f32) (n := 64) (a := 162) (b := 2048) (V m c main_arg1) (pos t) := by
  obtain ⟨-, -, -, e0, e1, e2, -⟩ := block_indices t
  funext i k
  show V m c main_arg1 (((cfg0.win 1).blk t).view.emb (ix3 (0 : Fin 1) i k)) = V m c main_arg1 (ix3 (pos t) i k)
  refine congrArg _ (funext fun a => Fin.ext ?_)
  match a with
  | ⟨0, _⟩ => show win0_1.index t (0 : Fin 3) * 1 + 1 * 0 = t.val; omega
  | ⟨1, _⟩ => show win0_1.index t (1 : Fin 3) * 162 + 1 * i.val = i.val; omega
  | ⟨2, _⟩ => show win0_1.index t (2 : Fin 3) * 2048 + 1 * k.val = k.val; omega

theorem wq_block (c : Dev nD) (t : Fin cfg0.N) :
    rd2 (φ := .bf16) (a := 2048) (b := 2048) (iblk m c 2 t) = rd2 (φ := .bf16) (a := 2048) (b := 2048) (V m c main_v0) := by
  obtain ⟨-, -, -, -, -, -, e0, e1, -⟩ := block_indices t
  funext i k
  show V m c main_v0 (((cfg0.win 2).blk t).view.emb (ix2 i k)) = V m c main_v0 (ix2 i k)
  refine congrArg _ (funext fun a => Fin.ext ?_)
  match a with
  | ⟨0, _⟩ => show win0_2.index t (0 : Fin 2) * 2048 + 1 * i.val = i.val; omega
  | ⟨1, _⟩ => show win0_2.index t (1 : Fin 2) * 2048 + 1 * k.val = k.val; omega

theorem wg_block (c : Dev nD) (t : Fin cfg0.N) :
    rd2 (φ := .bf16) (a := 2048) (b := 2048) (iblk m c 3 t) = rd2 (φ := .bf16) (a := 2048) (b := 2048) (V m c main_v1) := by
  obtain ⟨-, -, -, -, -, -, -, -, e0, e1, -⟩ := block_indices t
  funext i k
  show V m c main_v1 (((cfg0.win 3).blk t).view.emb (ix2 i k)) = V m c main_v1 (ix2 i k)
  refine congrArg _ (funext fun a => Fin.ext ?_)
  match a with
  | ⟨0, _⟩ => show win0_3.index t (0 : Fin 2) * 2048 + 1 * i.val = i.val; omega
  | ⟨1, _⟩ => show win0_3.index t (1 : Fin 2) * 2048 + 1 * k.val = k.val; omega

theorem table_block (c : Dev nD) (t : Fin cfg0.N) :
    rd3 (φ := .f32) (n := 1) (a := 162) (b := 2048) (iblk m c 4 t) 0 = rd3 (φ := .f32) (n := 1) (a := 162) (b := 2048) (V m c main_arg4) 0 := by
  obtain ⟨-, -, -, -, -, -, -, -, -, -, e0, e1, e2, -⟩ := block_indices t
  funext i k
  show V m c main_arg4 (((cfg0.win 4).blk t).view.emb (ix3 (0 : Fin 1) i k)) = V m c main_arg4 (ix3 (0 : Fin 1) i k)
  refine congrArg _ (funext fun a => Fin.ext ?_)
  match a with
  | ⟨0, _⟩ => show win0_4.index t (0 : Fin 3) * 1 + 1 * 0 = 0; omega
  | ⟨1, _⟩ => show win0_4.index t (1 : Fin 3) * 162 + 1 * i.val = i.val; omega
  | ⟨2, _⟩ => show win0_4.index t (2 : Fin 3) * 2048 + 1 * k.val = k.val; omega

/-! ## The weight matrices as the region finds them -/

/-- The first weight matrix after the host's format change holds the argument's values. -/
theorem wq_entry (c : Dev nD) :
    rd2 (φ := .bf16) (a := 2048) (b := 2048) (V m c main_v0) = rd2 (φ := .f32) (a := 2048) (b := 2048) (m ((c : Thread nD τ).loc main_arg2)) := by
  have e : (V m c main_v0 : S2048x2048.Idx → EReal)
      = truncf (F := Ideal) .bf16 (m ((c : Thread nD τ).loc main_arg2)) bitsLt_bf16_f32 := by
    dsimp only [Gen.V, Gen.hostOps0]; after_results
  funext i k
  show (V m c main_v0 : S2048x2048.Idx → EReal) (ix2 i k) = _
  rw [e]
  rfl

/-- The second weight matrix likewise. -/
theorem wg_entry (c : Dev nD) :
    rd2 (φ := .bf16) (a := 2048) (b := 2048) (V m c main_v1) = rd2 (φ := .f32) (a := 2048) (b := 2048) (m ((c : Thread nD τ).loc main_arg3)) := by
  have e : (V m c main_v1 : S2048x2048.Idx → EReal)
      = truncf (F := Ideal) .bf16 (m ((c : Thread nD τ).loc main_arg3)) bitsLt_bf16_f32 := by
    dsimp only [Gen.V, Gen.hostOps0]; after_results
  funext i k
  show (V m c main_v1 : S2048x2048.Idx → EReal) (ix2 i k) = _
  rw [e]
  rfl

/-! ## What a point writes back, the cover, the array -/

/-- What point `t` writes back is block `t` of the result array. -/
theorem flushed_eq (c : Dev nD) (t : Fin cfg0.N) :
    (dats m 0 c).flushed 5 t = ((cfg0.win 5).blk t).view.read (Elt Ideal) (whole m c) := by
  rw [Cert.KernelIdeal.Value.flushed5]
  unfold out0_5
  rw [View.canon_unit_zero zero3]
  simp only [View.ld_unit_zero (S := S1x162x2048) zero3, View.ld_unit_zero (S := S2048x2048) zero2]
  refine funext fun (j : S1x162x2048.Idx) => ?_
  obtain ⟨u, i, k, rfl⟩ : ∃ (u : Fin 1) (i : Fin 162) (k : Fin 2048), j = ix3 u i k := ⟨j 0, j 1, j 2, eq_ix3 j⟩
  obtain rfl : u = 0 := Subsingleton.elim _ _
  obtain ⟨-, -, -, -, -, -, -, -, -, -, -, -, -, e0, e1, e2⟩ := block_indices t
  have hemb : ((cfg0.win 5).blk t).view.emb (ix3 (0 : Fin 1) i k) = ix3 (pos t) i k := funext fun a => Fin.ext (by
    match a with
    | ⟨0, _⟩ => show win0_5.index t (0 : Fin 3) * 1 + 1 * 0 = t.val; omega
    | ⟨1, _⟩ => show win0_5.index t (1 : Fin 3) * 162 + 1 * i.val = i.val; omega
    | ⟨2, _⟩ => show win0_5.index t (2 : Fin 3) * 2048 + 1 * k.val = k.val; omega)
  show rd3 (φ := .f32) (n := 1) (a := 162) (b := 2048) (k0_pay1 (F := Ideal) (k0_pay2 (iblk m c 3 t)) (k0_pay3 (iblk m c 0 t) (iblk m c 2 t))
      (k0_pay4 (iblk m c 1 t)) (k0_pay5 (iblk m c 1 t) (iblk m c 4 t))) 0 i k
    = whole m c (((cfg0.win 5).blk t).view.emb (ix3 (0 : Fin 1) i k))
  rw [hemb]
  refine (congrFun (congrFun (Cert.KernelIdeal.Block.block_read (iblk m c 0 t) (iblk m c 1 t) (iblk m c 2 t) (iblk m c 3 t)
    (iblk m c 4 t)) i) k).trans ?_
  rw [queries_block m c t, features_block m c t, wq_block m c t, wg_block m c t, table_block m c t, wq_entry m c, wg_entry m c,
    V_main_arg0, V_main_arg1, V_main_arg4]
  rfl

/-- An index of the array is in point `t`'s block iff each coordinate is in the block's range on its axis. -/
theorem mem_block (t : Fin cfg0.N) (i : S64x162x2048.Idx) :
    i ∈ ((cfg0.win 5).blk t).view.set ↔ ∀ a : Fin 3, win0_5.index t a * S1x162x2048.size a ≤ (i a).val
      ∧ (i a).val < win0_5.index t a * S1x162x2048.size a + S1x162x2048.size a := by
  show i ∈ ((View.whole main_v2).slice (win0_5.rect t)).set ↔ _
  rw [View.set_slice_whole, Rect.mem_set_unit]
  exact Iff.rfl

/-- Every index of the result array lies in the block of the point that is its first coordinate. -/
theorem cover (i : S64x162x2048.Idx) : ∃ t : Fin cfg0.N, (cfg0.win 5).flush t = true ∧ i ∈ ((cfg0.win 5).blk t).view.set := by
  have h0 : (i 0).val < 64 := (i 0).isLt
  have h1 : (i 1).val < 162 := (i 1).isLt
  have h2 : (i 2).val < 2048 := (i 2).isLt
  obtain ⟨-, -, -, -, -, -, -, -, -, -, -, -, -, e0, e1, e2⟩ := block_indices (⟨(i 0).val, h0⟩ : Fin cfg0.N)
  have e0' : win0_5.index (⟨(i 0).val, h0⟩ : Fin cfg0.N) (0 : Fin 3) = (i 0).val := e0
  refine ⟨⟨(i 0).val, h0⟩, flush0_5 _, ?_⟩
  rw [mem_block]
  intro a
  match a with
  | ⟨0, _⟩ =>
    show win0_5.index (⟨(i 0).val, h0⟩ : Fin cfg0.N) (0 : Fin 3) * 1 ≤ (i 0).val
      ∧ (i 0).val < win0_5.index (⟨(i 0).val, h0⟩ : Fin cfg0.N) (0 : Fin 3) * 1 + 1
    omega
  | ⟨1, _⟩ =>
    show win0_5.index (⟨(i 0).val, h0⟩ : Fin cfg0.N) (1 : Fin 3) * 162 ≤ (i 1).val
      ∧ (i 1).val < win0_5.index (⟨(i 0).val, h0⟩ : Fin cfg0.N) (1 : Fin 3) * 162 + 162
    omega
  | ⟨2, _⟩ =>
    show win0_5.index (⟨(i 0).val, h0⟩ : Fin cfg0.N) (2 : Fin 3) * 2048 ≤ (i 2).val
      ∧ (i 2).val < win0_5.index (⟨(i 0).val, h0⟩ : Fin cfg0.N) (2 : Fin 3) * 2048 + 2048
    omega

/-- The result window's array after the run is the result array. -/
theorem final (c : Dev nD) : (dats m 0 c).arrAt 5 cfg0.N = whole m c :=
  (dats m 0 c).arrAt_eq_of_cover 5 (whole m c) (fun t _ => flushed_eq m c t) cover

/-- The kernel's run: the result buffer ends at the result array of the arguments, the arguments unchanged. -/
theorem run : θ_run defs (onTc (τ := τ) (main (F := Ideal))) ⟨m, fun _ => 0, ρ⟩ fun r => ∀ c : Dev nD,
      r.2.mem ((c : Thread nD τ).loc main_v2) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.Whole

end
-- ==== Proof.LibBatchRows.lean ====
/-
  Row operations on a stack of matrices (an `n × a × k` array), read at an entry, for any sizes.

  The host sums or maximises along the last axis, giving one number per row of each matrix of the stack; keeps that
  number as an `n × a × 1` column stack; and spreads the column stack back along the lanes. A scalar spread over any
  shape reads the scalar everywhere, and one `1 × a × b` slab spread over the stack repeats the slab in every matrix.
-/
import Idealize.ShloMosaic.Lib.Pipeline.Value
import Idealize.ShloMosaic.Lib.ValueIdx
import Idealize.ShloMosaic.PureOps.Ideal.Laws

noncomputable section

open scoped BigOperators

namespace Cert.Lib.BatchRows

open Idealize.ShloMosaic Idealize.ShloMosaic.ValueIdx

variable {α : Type}

/-- A scalar spread over any shape reads the scalar's one entry everywhere. -/
theorem splat_apply {s : Shape} (h : (⟨0, ![]⟩ : Shape).BroadcastsInDim s (![] : Fin 0 → Fin s.rank))
    (y : (⟨0, ![]⟩ : Shape).Idx → α) (j : s.Idx) : broadcastInDim s ![] h y j = y ix0 :=
  broadcastInDim_apply _ h y j ix0 (fun ax => ax.elim0)

/-- An `n × a` table kept as an `n × a × 1` column stack reads, at `(t, i, u)`, the table at `(t, i)`. -/
theorem keep_apply {n a : ℕ} (h : (⟨2, ![n, a]⟩ : Shape).BroadcastsInDim ⟨3, ![n, a, 1]⟩ ![0, 1])
    (y : (⟨2, ![n, a]⟩ : Shape).Idx → α) (t : Fin n) (i : Fin a) (u : Fin 1) :
    broadcastInDim ⟨3, ![n, a, 1]⟩ ![0, 1] h y (ix3 t i u) = y (ix2 t i) :=
  broadcastInDim_apply _ h y (ix3 t i u) (ix2 t i) (fun ax => match ax with
    | ⟨0, _⟩ => by
      show t.val = if n = 1 then 0 else t.val
      split
      · have := t.isLt; omega
      · rfl
    | ⟨1, _⟩ => by
      show i.val = if a = 1 then 0 else i.val
      split
      · have := i.isLt; omega
      · rfl)

/-- An `n × a × 1` column stack spread along `b` lanes reads, at `(t, i, c)`, the column entry of row `i` of matrix `t`. -/
theorem lanes_apply {n a b : ℕ} (h : (⟨3, ![n, a, 1]⟩ : Shape).BroadcastsInDim ⟨3, ![n, a, b]⟩ ![0, 1, 2])
    (y : (⟨3, ![n, a, 1]⟩ : Shape).Idx → α) (t : Fin n) (i : Fin a) (c : Fin b) :
    broadcastInDim ⟨3, ![n, a, b]⟩ ![0, 1, 2] h y (ix3 t i c) = y (ix3 t i (0 : Fin 1)) :=
  broadcastInDim_apply _ h y (ix3 t i c) (ix3 t i (0 : Fin 1)) (fun ax => match ax with
    | ⟨0, _⟩ => by
      show t.val = if n = 1 then 0 else t.val
      split
      · have := t.isLt; omega
      · rfl
    | ⟨1, _⟩ => by
      show i.val = if a = 1 then 0 else i.val
      split
      · have := i.isLt; omega
      · rfl
    | ⟨2, _⟩ => by
      show (0 : ℕ) = if (1 : ℕ) = 1 then 0 else c.val
      rw [if_pos rfl])

/-- One `1 × a × b` slab spread over a stack of `n` reads, at `(t, i, c)`, the slab at `(0, i, c)`. -/
theorem slab_apply {n a b : ℕ} (h : (⟨3, ![1, a, b]⟩ : Shape).BroadcastsInDim ⟨3, ![n, a, b]⟩ ![0, 1, 2])
    (y : (⟨3, ![1, a, b]⟩ : Shape).Idx → α) (t : Fin n) (i : Fin a) (c : Fin b) :
    broadcastInDim ⟨3, ![n, a, b]⟩ ![0, 1, 2] h y (ix3 t i c) = y (ix3 (0 : Fin 1) i c) :=
  broadcastInDim_apply _ h y (ix3 t i c) (ix3 (0 : Fin 1) i c) (fun ax => match ax with
    | ⟨0, _⟩ => by
      show (0 : ℕ) = if (1 : ℕ) = 1 then 0 else t.val
      rw [if_pos rfl]
    | ⟨1, _⟩ => by
      show i.val = if a = 1 then 0 else i.val
      split
      · have := i.isLt; omega
      · rfl
    | ⟨2, _⟩ => by
      show c.val = if b = 1 then 0 else c.val
      split
      · have := c.isLt; omega
      · rfl)

/-- The index of the stack over the reduced index `(t, i)` with the lane `c` put back is `(t, i, c)`. -/
theorem lift_last {n a k : ℕ} (h : (⟨3, ![n, a, k]⟩ : Shape).Reduces [2] ⟨2, ![n, a]⟩) (t : Fin n) (i : Fin a)
    (c : Fin ((⟨3, ![n, a, k]⟩ : Shape).size 2)) : h.lift (ix2 t i) c = ix3 t i (⟨c.val, c.isLt⟩ : Fin k) := by
  funext ax; apply Fin.ext
  match ax with
  | ⟨0, _⟩ => rfl
  | ⟨1, _⟩ => rfl
  | ⟨2, _⟩ => rfl

/-- The host's sum along the last axis reads, at `(t, i)`, the initial value plus the sum of row `i` of matrix `t`. -/
theorem hostSum_apply {n a k : ℕ} (x : FVec Ideal ⟨3, ![n, a, k]⟩ .f32) (v : FVec Ideal ⟨0, ![]⟩ .f32)
    (h' : (⟨3, ![n, a, k]⟩ : Shape).ReducesTo [2] ⟨2, ![n, a]⟩) (h : (⟨3, ![n, a, k]⟩ : Shape).Reduces [2] ⟨2, ![n, a]⟩)
    (hu : 0 < (⟨0, ![]⟩ : Shape).numel) (t : Fin n) (i : Fin a) :
    Host.reduceAdd x v h' hu (ix2 t i) = v ix0 + ∑ c : Fin k, x (ix3 t i c) := by
  simp only [Host.reduceAdd, Ideal.hostReduceAdd_def]
  rw [Ideal.hostReduceAdd_single h' h]
  refine congrArg₂ (· + ·) (congrArg v (eq_ix0 _)) ?_
  exact Finset.sum_congr rfl fun c _ => congrArg x (lift_last h t i c)

/-- The host's maximum along the last axis reads, at `(t, i)`, the fold of `max` from the initial value over row `i` of
    matrix `t`. -/
theorem hostMax_apply {n a k : ℕ} (x : FVec Ideal ⟨3, ![n, a, k]⟩ .f32) (v : FVec Ideal ⟨0, ![]⟩ .f32)
    (h' : (⟨3, ![n, a, k]⟩ : Shape).ReducesTo [2] ⟨2, ![n, a]⟩) (h : (⟨3, ![n, a, k]⟩ : Shape).Reduces [2] ⟨2, ![n, a]⟩)
    (hu : 0 < (⟨0, ![]⟩ : Shape).numel) (t : Fin n) (i : Fin a) :
    Host.reduce FloatOps.maximumf x v h' hu (ix2 t i)
      = (Finset.univ : Finset (Fin k)).fold max (v ix0) (fun c => x (ix3 t i c)) := by
  rw [Host.reduce_eq_fold_single FloatOps.maximumf x v h' h hu]
  have hv : v (Shape.Idx.first hu) = v ix0 := congrArg v (eq_ix0 _)
  have hf : (x ∘ h.lift (ix2 t i)) = fun c : Fin k => x (ix3 t i c) := funext fun c => congrArg x (lift_last h t i c)
  rw [hv]
  exact congrArg (fun f => Finset.fold max (v ix0) f (Finset.univ : Finset (Fin k))) hf

end Cert.Lib.BatchRows

end
-- ==== Proof.RefStages.lean ====
/-
  The reference's host operations, group by group, read on one matrix of the stack as the specification's functions.

  The reference works on all 64 groups at once: every array is a stack of 64 matrices and every operation acts on each
  matrix of the stack by itself (the weight matrices and the positional table are shared). So each group of operations,
  read at matrix `t` of its result, is the specification's function of matrix `t` of its operands.
-/
import proofs.«140493_j51814485458995_1_alg».proof.Proof.Gen.ReferenceIdeal.Read
import proofs.«140493_j51814485458995_1_alg».proof.Proof.Spec
import proofs.«140493_j51814485458995_1_alg».proof.Proof.LibBatchRows

noncomputable section

open scoped BigOperators

namespace Cert.ReferenceIdeal.Stages

open Cert.ReferenceIdeal Cert.ReferenceIdeal.Gen Cert.ReferenceIdeal.Read Cert.Attn Cert.Lib.BatchRows
open Idealize.ShloMosaic Idealize.ShloMosaic.ValueIdx

/-! ## The three matrix products -/

/-- Every matrix of a stack against the rows of one square weight matrix. -/
theorem projR_read (X : FVec Ideal S64x162x2048 .f32) (Y : FVec Ideal S2048x2048 .f32) (t : Fin 64) :
    rd3 (Host.dotGeneral dot_S64x162x2048_S2048x2048_S64x162x2048_2_1_01_0_n_n none X Y) t = timesT (rd3 X t) (rd2 Y) := by
  funext i d
  show Host.dotGeneral dot_S64x162x2048_S2048x2048_S64x162x2048_2_1_01_0_n_n none X Y (ix3 t i d) = ∑ c : Fin 2048, X (ix3 t i c) * Y (ix2 d c)
  simp only [Host.dotGeneral]
  rw [Ideal.dotGeneral_apply, ← Equiv.sum_comp (contrEquiv1 dot_S64x162x2048_S2048x2048_S64x162x2048_2_1_01_0_n_n 2048 rfl rfl).symm]
  refine Finset.sum_congr rfl fun k _ => ?_
  have hk := contrEquiv1_symm_val dot_S64x162x2048_S2048x2048_S64x162x2048_2_1_01_0_n_n 2048 rfl rfl k
  have el : dot_S64x162x2048_S2048x2048_S64x162x2048_2_1_01_0_n_n.lhsIdx (ix3 t i d) ((contrEquiv1 dot_S64x162x2048_S2048x2048_S64x162x2048_2_1_01_0_n_n 2048 rfl rfl).symm k) = ix3 t i k := funext fun a => Fin.ext (by
    match a with
    | ⟨0, _⟩ => exact lhs_main_v0_0 _ _
    | ⟨1, _⟩ => exact lhs_main_v0_1 _ _
    | ⟨2, _⟩ => exact (lhs_main_v0_2 _ _).trans hk)
  have er : dot_S64x162x2048_S2048x2048_S64x162x2048_2_1_01_0_n_n.rhsIdx (ix3 t i d) ((contrEquiv1 dot_S64x162x2048_S2048x2048_S64x162x2048_2_1_01_0_n_n 2048 rfl rfl).symm k) = ix2 d k := funext fun a => Fin.ext (by
    match a with
    | ⟨0, _⟩ => exact rhs_main_v0_0 _ _
    | ⟨1, _⟩ => exact (rhs_main_v0_1 _ _).trans hk)
  rw [el, er]

/-- Matrix by matrix, the rows of one stack against the rows of another: a stack of tables of inner products. -/
theorem gramR_read (X : FVec Ideal S64x162x2048 .f32) (Y : FVec Ideal S64x162x2048 .f32) (t : Fin 64) :
    rd3 (Host.dotGeneral dot_S64x162x2048_S64x162x2048_S64x162x162_2_2_1_1_0_0 none X Y) t = timesT (rd3 X t) (rd3 Y t) := by
  funext i d
  show Host.dotGeneral dot_S64x162x2048_S64x162x2048_S64x162x162_2_2_1_1_0_0 none X Y (ix3 t i d) = ∑ c : Fin 2048, X (ix3 t i c) * Y (ix3 t d c)
  simp only [Host.dotGeneral]
  rw [Ideal.dotGeneral_apply, ← Equiv.sum_comp (contrEquiv1 dot_S64x162x2048_S64x162x2048_S64x162x162_2_2_1_1_0_0 2048 rfl rfl).symm]
  refine Finset.sum_congr rfl fun k _ => ?_
  have hk := contrEquiv1_symm_val dot_S64x162x2048_S64x162x2048_S64x162x162_2_2_1_1_0_0 2048 rfl rfl k
  have el : dot_S64x162x2048_S64x162x2048_S64x162x162_2_2_1_1_0_0.lhsIdx (ix3 t i d) ((contrEquiv1 dot_S64x162x2048_S64x162x2048_S64x162x162_2_2_1_1_0_0 2048 rfl rfl).symm k) = ix3 t i k := funext fun a => Fin.ext (by
    match a with
    | ⟨0, _⟩ => exact lhs_main_v6_0 _ _
    | ⟨1, _⟩ => exact lhs_main_v6_1 _ _
    | ⟨2, _⟩ => exact (lhs_main_v6_2 _ _).trans hk)
  have er : dot_S64x162x2048_S64x162x2048_S64x162x162_2_2_1_1_0_0.rhsIdx (ix3 t i d) ((contrEquiv1 dot_S64x162x2048_S64x162x2048_S64x162x162_2_2_1_1_0_0 2048 rfl rfl).symm k) = ix3 t d k := funext fun a => Fin.ext (by
    match a with
    | ⟨0, _⟩ => exact rhs_main_v6_0 _ _
    | ⟨1, _⟩ => exact rhs_main_v6_1 _ _
    | ⟨2, _⟩ => exact (rhs_main_v6_2 _ _).trans hk)
  rw [el, er]

/-- Matrix by matrix, a stack of weight matrices against the rows of a stack of arrays: weighted sums of rows. -/
theorem mixR_read (X : FVec Ideal S64x162x162 .f32) (Y : FVec Ideal S64x162x2048 .f32) (t : Fin 64) :
    rd3 (Host.dotGeneral dot_S64x162x162_S64x162x2048_S64x162x2048_2_1_1_2_0_0 none X Y) t = times (rd3 X t) (rd3 Y t) := by
  funext i d
  show Host.dotGeneral dot_S64x162x162_S64x162x2048_S64x162x2048_2_1_1_2_0_0 none X Y (ix3 t i d) = ∑ c : Fin 162, X (ix3 t i c) * Y (ix3 t c d)
  simp only [Host.dotGeneral]
  rw [Ideal.dotGeneral_apply, ← Equiv.sum_comp (contrEquiv1 dot_S64x162x162_S64x162x2048_S64x162x2048_2_1_1_2_0_0 162 rfl rfl).symm]
  refine Finset.sum_congr rfl fun k _ => ?_
  have hk := contrEquiv1_symm_val dot_S64x162x162_S64x162x2048_S64x162x2048_2_1_1_2_0_0 162 rfl rfl k
  have el : dot_S64x162x162_S64x162x2048_S64x162x2048_2_1_1_2_0_0.lhsIdx (ix3 t i d) ((contrEquiv1 dot_S64x162x162_S64x162x2048_S64x162x2048_2_1_1_2_0_0 162 rfl rfl).symm k) = ix3 t i k := funext fun a => Fin.ext (by
    match a with
    | ⟨0, _⟩ => exact lhs_main_v18_0 _ _
    | ⟨1, _⟩ => exact lhs_main_v18_1 _ _
    | ⟨2, _⟩ => exact (lhs_main_v18_2 _ _).trans hk)
  have er : dot_S64x162x162_S64x162x2048_S64x162x2048_2_1_1_2_0_0.rhsIdx (ix3 t i d) ((contrEquiv1 dot_S64x162x162_S64x162x2048_S64x162x2048_2_1_1_2_0_0 162 rfl rfl).symm k) = ix3 t k d := funext fun a => Fin.ext (by
    match a with
    | ⟨0, _⟩ => exact rhs_main_v18_0 _ _
    | ⟨1, _⟩ => exact (rhs_main_v18_1 _ _).trans hk
    | ⟨2, _⟩ => exact rhs_main_v18_2 _ _)
  rw [el, er]

/-! ## Rows divided by their floored norms -/

/-- Each row of each matrix divided by the larger of its Euclidean norm and the floor, as the reference spells it. -/
def unitR (x : FVec Ideal S64x162x2048 .f32) : FVec Ideal S64x162x2048 .f32 :=
  Host.divf x (broadcastInDim S64x162x2048 ![0, 1, 2] bcast_S64x162x1_S64x162x2048_0_1_2
    (maximumf (Host.sqrt (broadcastInDim S64x162x1 ![0, 1] bcast_S64x162_S64x162x1_0_1
        (Host.reduceAdd (mulf x x) (constant S_ .f32 0x00000000#32) reducesTo_S64x162x2048_S64x162_d2 h_S_)))
      (broadcastInDim S64x162x1 ![] bcast_S_S64x162x1 (constant S_ .f32 0x2B8CBCCC#32))))

/-- The host's quotient, square root and exponential read at an entry. -/
theorem hostDivf_apply {s : Shape} {φ : FTy} (a b : FVec Ideal s φ) (j : s.Idx) : Host.divf a b j = Ideal.div (a j) (b j) := rfl
theorem hostSqrt_apply {s : Shape} {φ : FTy} (a : FVec Ideal s φ) (j : s.Idx) : Host.sqrt a j = Ideal.sqrt (a j) := rfl
theorem hostExp_apply {s : Shape} {φ : FTy} (a : FVec Ideal s φ) (j : s.Idx) : Host.exp a j = Ideal.exp (a j) := rfl

theorem unitR_read (x : FVec Ideal S64x162x2048 .f32) (t : Fin 64) : rd3 (unitR x) t = unitRows (rd3 x t) := by
  funext i c
  show unitR x (ix3 t i c) = _
  unfold unitR
  rw [hostDivf_apply, lanes_apply, maximumf_apply, hostSqrt_apply, keep_apply, splat_apply,
    hostSum_apply (mulf x x) _ reducesTo_S64x162x2048_S64x162_d2 (by decide) h_S_ t i, constant_apply, constant_apply,
    Ideal.ofBits_zero_f32, zero_add]
  rfl

/-! ## The row softmax -/

/-- `exp` of each entry less its row's maximum, as the reference spells it. -/
def expShiftR (s : FVec Ideal S64x162x162 .f32) : FVec Ideal S64x162x162 .f32 :=
  Host.exp (subf s (broadcastInDim S64x162x162 ![0, 1, 2] bcast_S64x162x1_S64x162x162_0_1_2
    (broadcastInDim S64x162x1 ![0, 1] bcast_S64x162_S64x162x1_0_1
      (maximumf (broadcastInDim S64x162 ![] bcast_S_S64x162 (constant S_ .f32 0xFF800000#32))
        (Host.reduce FloatOps.maximumf s (constant S_ .f32 0xFF800000#32) reducesTo_S64x162x162_S64x162_d2 h_S_)))))

theorem expShiftR_apply (s : FVec Ideal S64x162x162 .f32) (t : Fin 64) (i j : Fin 162) :
    expShiftR s (ix3 t i j) = Ideal.exp (rd3 s t i j - rowMax (rd3 s t) i) := by
  unfold expShiftR
  rw [hostExp_apply, subf_apply, lanes_apply, keep_apply, maximumf_apply, splat_apply,
    hostMax_apply s _ reducesTo_S64x162x162_S64x162_d2 (by decide) h_S_ t i, constant_apply]
  rfl

/-- The softmax of each row of each matrix, as the reference spells it. -/
def softmaxR (s : FVec Ideal S64x162x162 .f32) : FVec Ideal S64x162x162 .f32 :=
  Host.divf (expShiftR s) (broadcastInDim S64x162x162 ![0, 1, 2] bcast_S64x162x1_S64x162x162_0_1_2
    (broadcastInDim S64x162x1 ![0, 1] bcast_S64x162_S64x162x1_0_1
      (Host.reduceAdd (expShiftR s) (constant S_ .f32 0x00000000#32) reducesTo_S64x162x162_S64x162_d2 h_S_)))

theorem softmaxR_read (s : FVec Ideal S64x162x162 .f32) (t : Fin 64) : rd3 (softmaxR s) t = softmax (rd3 s t) := by
  funext i j
  show softmaxR s (ix3 t i j) = _
  unfold softmaxR
  rw [hostDivf_apply, lanes_apply, keep_apply,
    hostSum_apply (expShiftR s) _ reducesTo_S64x162x162_S64x162_d2 (by decide) h_S_ t i, constant_apply,
    Ideal.ofBits_zero_f32, zero_add]
  simp only [expShiftR_apply]
  rfl

/-! ## The shared positional table and the logit scale -/

/-- The positional table spread over the stack is the table in every matrix. -/
theorem posR_read (p : FVec Ideal S1x162x2048 .f32) (t : Fin 64) :
    rd3 (broadcastInDim S64x162x2048 ![0, 1, 2] bcast_S1x162x2048_S64x162x2048_0_1_2 p) t = rd3 p 0 := by
  funext i c
  exact slab_apply bcast_S1x162x2048_S64x162x2048_0_1_2 p t i c

/-- Every entry of the stack times the spread scale literal. -/
theorem scaledR_read (x : FVec Ideal S64x162x162 .f32) (t : Fin 64) :
    rd3 (mulf x (broadcastInDim S64x162x162 ![] bcast_S_S64x162x162 (constant S_ .f32 0x3CB504F3#32))) t = scaled (rd3 x t) := by
  funext i j
  show mulf x _ (ix3 t i j) = _
  rw [mulf_apply, splat_apply, constant_apply]
  rfl

/-- A sum of two stacks, matrix by matrix. -/
theorem plusR_read (x y : FVec Ideal S64x162x2048 .f32) (t : Fin 64) : rd3 (addf x y) t = plus (rd3 x t) (rd3 y t) := rfl

end Cert.ReferenceIdeal.Stages

end
-- ==== Proof.RefBlock.lean ====
/-
  The reference's result, every group at once, is the specification's result array.

  The reference's 49 host operations compose the operation groups read in the stage lemmas: the projected queries; the
  features after the cosine-similarity attention; those plus the positional table, projected; the scaled inner
  products, softmaxed; and the weighted sums of the attended features. Matrix `t` of the result is the group function
  of matrix `t` of the two stacked arguments.
-/
import proofs.«140493_j51814485458995_1_alg».proof.Proof.RefStages

noncomputable section

namespace Cert.ReferenceIdeal.Block

open Cert.ReferenceIdeal Cert.ReferenceIdeal.Gen Cert.ReferenceIdeal.Read Cert.ReferenceIdeal.Stages Cert.Attn
open Idealize.ShloMosaic Idealize.ShloMosaic.ValueIdx

/-- The features after the cosine-similarity attention, every group at once, as the reference spells it. -/
def selfMixR (x1 : FVec Ideal S64x162x2048 .f32) : FVec Ideal S64x162x2048 .f32 :=
  Host.dotGeneral dot_S64x162x162_S64x162x2048_S64x162x2048_2_1_1_2_0_0 none
    (softmaxR (Host.dotGeneral dot_S64x162x2048_S64x162x2048_S64x162x162_2_2_1_1_0_0 none (unitR x1) (unitR x1))) x1

theorem selfMixR_read (x1 : FVec Ideal S64x162x2048 .f32) (t : Fin 64) : rd3 (selfMixR x1) t = selfMix (rd3 x1 t) := by
  unfold selfMixR
  rw [mixR_read, softmaxR_read, gramR_read, unitR_read]
  rfl

/-- The reference's last stage is the composition of the operation groups. -/
theorem stages_eq (x0 x1 : FVec Ideal S64x162x2048 .f32) (x2 x3 : FVec Ideal S2048x2048 .f32) (x4 : FVec Ideal S1x162x2048 .f32) :
    val_main_v36 (F := Ideal) x0 x1 x2 x3 x4
      = Host.dotGeneral dot_S64x162x162_S64x162x2048_S64x162x2048_2_1_1_2_0_0 none
          (softmaxR (mulf (Host.dotGeneral dot_S64x162x2048_S64x162x2048_S64x162x162_2_2_1_1_0_0 none
              (Host.dotGeneral dot_S64x162x2048_S2048x2048_S64x162x2048_2_1_01_0_n_n none x0 x2)
              (Host.dotGeneral dot_S64x162x2048_S2048x2048_S64x162x2048_2_1_01_0_n_n none
                (addf (selfMixR x1) (broadcastInDim S64x162x2048 ![0, 1, 2] bcast_S1x162x2048_S64x162x2048_0_1_2 x4)) x3))
            (broadcastInDim S64x162x162 ![] bcast_S_S64x162x162 (constant S_ .f32 0x3CB504F3#32))))
          (selfMixR x1) := rfl

/-- Matrix `t` of the reference's result is the group function of matrix `t` of the stacked arguments. -/
theorem ref_read (x0 x1 : FVec Ideal S64x162x2048 .f32) (x2 x3 : FVec Ideal S2048x2048 .f32) (x4 : FVec Ideal S1x162x2048 .f32)
    (t : Fin 64) :
    rd3 (φ := .f32) (val_main_v36 (F := Ideal) x0 x1 x2 x3 x4) t = attend (rd3 x0 t) (rd3 x1 t) (rd2 x2) (rd2 x3) (rd3 x4 0) := by
  rw [stages_eq, mixR_read, softmaxR_read, scaledR_read, gramR_read, projR_read, projR_read, plusR_read, selfMixR_read, posR_read]
  rfl

/-- The reference's result is the specification's result array. -/
theorem ref_result (x0 x1 : FVec Ideal S64x162x2048 .f32) (x2 x3 : FVec Ideal S2048x2048 .f32) (x4 : FVec Ideal S1x162x2048 .f32) :
    val_main_v36 (F := Ideal) x0 x1 x2 x3 x4 = result x0 x1 x2 x3 x4 := by
  funext j
  obtain ⟨t, i, c, rfl⟩ : ∃ (t : Fin 64) (i : Fin 162) (c : Fin 2048), j = ix3 t i c := ⟨j 0, j 1, j 2, eq_ix3 j⟩
  rw [result_apply]
  exact congrFun (congrFun (ref_read x0 x1 x2 x3 x4 t) i) c

end Cert.ReferenceIdeal.Block

end
-- ==== Proof.lean ====
/-
  The five claims about a two-stage patch attention over 64 groups of 162 patches with 2048 features.

  For each group the kernel and the reference compute the same function of the group's queries `q` and features `g`,
  the shared weight matrices `Wq`, `Wg` and the shared positional table: the rows of `g`, divided by their norms
  floored at a tiny constant, attend to one another through a row softmax of their inner products, giving
  `g₂ = softmax(ĝ ĝᵀ) g`; then `out = softmax(s · (q Wqᵀ)((g₂ + pos) Wgᵀ)ᵀ) g₂` with `s` one literal scale. The kernel
  runs one group per grid point on operands narrowed to a 16-bit format; the reference runs all groups at once in one
  format. Over the extended reals a change of format is the identity, a matrix product accumulated into zero and the
  host's contraction are the same plain sums, a lane sum and the host's sum from zero are the same sum, and both
  softmaxes take the row maximum from −∞ in the same way — so the two programs spell one function, operation group by
  operation group, and no algebraic law beyond `0 + x = x` is needed; the finiteness of the inputs is not used.

  The modules: Spec (the function, over plain matrices); KernelStages and KernelBlock (one output block of the kernel
  is that function of its input blocks); KernelWhole (the 64 blocks are the result array); RefStages and RefBlock (the
  reference's result is the result array); and below, the claims. The frames of the two kernel programs are the
  generated ones; the reference's frame is its generated run with the result dropped; the idealization rewrote no
  operation, so there is nothing to preserve.
-/
import proofs.«140493_j51814485458995_1_alg».proof.Defs
import proofs.«140493_j51814485458995_1_alg».proof.Proof.Gen.Kernel
import proofs.«140493_j51814485458995_1_alg».proof.Proof.Gen.Kernel.Skeleton
import proofs.«140493_j51814485458995_1_alg».proof.Proof.Gen.Kernel.Launch
import proofs.«140493_j51814485458995_1_alg».proof.Proof.Gen.Kernel.Points
import proofs.«140493_j51814485458995_1_alg».proof.Proof.Gen.Kernel.Frame
import proofs.«140493_j51814485458995_1_alg».proof.Proof.Gen.KernelIdeal
import proofs.«140493_j51814485458995_1_alg».proof.Proof.Gen.KernelIdeal.Skeleton
import proofs.«140493_j51814485458995_1_alg».proof.Proof.Gen.KernelIdeal.Launch
import proofs.«140493_j51814485458995_1_alg».proof.Proof.Gen.KernelIdeal.Points
import proofs.«140493_j51814485458995_1_alg».proof.Proof.Gen.KernelIdeal.Frame
import proofs.«140493_j51814485458995_1_alg».proof.Proof.Gen.ReferenceIdeal
import proofs.«140493_j51814485458995_1_alg».proof.Proof.Gen.Pre_finite_inputs
import proofs.«140493_j51814485458995_1_alg».proof.Proof.Gen.KernelIdeal.Value
import proofs.«140493_j51814485458995_1_alg».proof.Proof.Gen.ReferenceIdeal.Run
import proofs.«140493_j51814485458995_1_alg».proof.Proof.Gen.ReferenceIdeal.Read
import proofs.«140493_j51814485458995_1_alg».proof.Proof.KernelWhole
import proofs.«140493_j51814485458995_1_alg».proof.Proof.RefBlock
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the five arguments both programs end with the result array of those arguments. -/
theorem algebraic : Cert.algebraic_KernelIdeal_ReferenceIdeal := by
  intro m ρ m' ρ' _ hagree
  refine ⟨fun c => Cert.KernelIdeal.Whole.whole m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.ReferenceIdeal.Block.ref_result, (hagree c).1, (hagree c).2.1,
    (hagree c).2.2.1, (hagree c).2.2.2.1, (hagree c).2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
